-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S1x1, .f32⟩
  | .hbm, ⟨3, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1, .f32⟩
  | .local _ .vmem, ⟨5, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v43 : BitVec 1 := Scalar.cmpi .eq arg0 c31_i32
  let v44 : BitVec 32 := Scalar.extui v43
  let c0_i32_18 : BitVec 32 := 0#32
  let v45 : BitVec 1 := Scalar.cmpi .ne v44 c0_i32_18
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S8192x4096, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_cst_9 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.BodyPieces.lean ====
/-
  What the kernel's body leaves behind at a grid point, as values.

  The body keeps a running total in a one-element buffer of its own.  At the first point it stores zero there,
  reads it back and stores zero plus the point's contribution; at every later point it reads the total the point
  before left and stores that total plus the point's contribution; at the last point it also stores the total
  divided by the number of rows into the output's block.  Each of these buffers is covered by the one store that
  comes last, so what it holds is that store's payload, with every load reading the whole buffer it is taken from.
-/
import proofs.«125833_j15444702397065_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.BodyPieces

open Cert.KernelIdeal Cert.KernelIdeal.Gen

variable {F : FTy → Type} [FloatOps F]

/-- The zero offsets of a whole-buffer rectangle. -/
theorem hz : (![0, 0] : Fin 2 → Nat) = fun _ => 0 := funext fun a => by fin_cases a <;> rfl

/-- At the first point the running total is left at zero plus the point's contribution. -/
theorem total_first (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S256x4096 .f32) :
    sout0_A_0 c i a1 h1 a2 h2 a3 h3 a4 h4 hc0 hc1 x0 x1 = k0_pay1 (k0_pay4 x0 x1) (k0_pay3 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S256x4096) hz]

/-- At a point that is neither first nor last the running total `xs` is left at `xs` plus the point's contribution. -/
theorem total_later (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S256x4096 .f32) (xs : Vec F S1x1 .f32) :
    sout0_B_0 c i a1 h1 a2 h2 a3 h3 a4 h4 hc0 hc1 x0 x1 xs = k0_pay1 (k0_pay4 x0 x1) xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S256x4096) hz,
    View.ld_unit_zero (S := S1x1) hz]

/-- At the last point the running total is updated in the same way, -/
theorem total_last (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (xs : Vec F S1x1 .f32) :
    sout0_C_0 c i a1 h1 a2 h2 a3 h3 a4 h4 hc0 hc1 x0 x1 xs = k0_pay1 (k0_pay4 x0 x1) xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S256x4096) hz,
    View.ld_unit_zero (S := S1x1) hz]

/-- and the output's block is left at the updated total divided by the number of rows. -/
theorem out_last (c : Dev nD) (i : grid0.Coords) (a1 : Memref sig .tc .vmem S256x4096 .f32) (h1 : a1.IsWhole)
    (a2 : Memref sig .tc .vmem S256x4096 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x4096 .f32) (xs : Vec F S1x1 .f32) :
    out0_C_2 c i a1 h1 a2 h2 a3 h3 a4 h4 hc0 hc1 x0 x1 xs = k0_pay2 (k0_pay1 (k0_pay4 x0 x1) xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S256x4096) hz,
    View.ld_unit_zero (S := S1x1) hz]

end Cert.KernelIdeal.BodyPieces

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«125833_j15444702397065_1_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.PearsonSpec.lean ====
/-
  The batch Pearson loss on the extended reals.

  For two arrays X, Y of B rows and T columns, row r contributes
      1 - (Σ_k xc_k · yc_k) / ( √(Σ_k xc_k² + β) · √(Σ_k yc_k² + β) ),
  where xc_k = X(r,k) - (Σ_l X(r,l)) / cT is the entry minus the row's mean (the mean is the row's sum divided by
  the constant cT) and likewise yc; the loss is the sum of the B row terms divided by the constant cB.  The
  constants cT, β, 1 and cB enter as parameters: nothing below depends on their values.

  A sum of B = n · b row terms may be taken block by block (n blocks of b consecutive rows): this uses only that
  the addition of the extended reals is commutative and associative with neutral element 0, so no entry needs to
  be finite.
-/
import Idealize.ShloMosaic.PureOps.Ideal
import Idealize.ShloMosaic.Lib.ValueIdx
import proofs.«125833_j15444702397065_1_alg».proof.Proof.LibBlockSum

noncomputable section

namespace PearsonLoss

open Idealize.ShloMosaic Idealize.ShloMosaic.ValueIdx

/-- An entry of a row minus the row's mean, the mean being the row's sum divided by `cT`. -/
def centered {T : ℕ} (cT : EReal) (x : Fin T → EReal) (k : Fin T) : EReal :=
  x k - Ideal.div (∑ l, x l) cT

/-- One row's term: one minus the quotient of the centred rows' inner product by the product of the square
    roots of their squared lengths, each shifted by `β`. -/
def rowTerm {T : ℕ} (cT β one : EReal) (x y : Fin T → EReal) : EReal :=
  one - Ideal.div (∑ k, centered cT x k * centered cT y k)
    (Ideal.sqrt ((∑ k, centered cT x k * centered cT x k) + β)
      * Ideal.sqrt ((∑ k, centered cT y k * centered cT y k) + β))

/-- Row `r` of a B × T array. -/
def row {B T : ℕ} (X : (⟨2, ![B, T]⟩ : Shape).Idx → EReal) (r : Fin B) : Fin T → EReal := fun k => X (ix2 r k)

/-- The loss: the sum of the row terms divided by `cB`. -/
def loss {B T : ℕ} (cT β one cB : EReal) (X Y : (⟨2, ![B, T]⟩ : Shape).Idx → EReal) : EReal :=
  Ideal.div (∑ r : Fin B, rowTerm cT β one (row X r) (row Y r)) cB

/-- The four constants of this computation, as the words the two programs spell them with: the row length 4096,
    the shift β (the single-precision neighbour of 10⁻⁷), 1, and the number of rows 8192.  Both programs use the
    same words, so their values are never needed. -/
abbrev wT : EReal := Ideal.ofBits .f32 0x45800000#32
abbrev wβ : EReal := Ideal.ofBits .f32 0x33D6BF95#32
abbrev w1 : EReal := Ideal.ofBits .f32 0x3F800000#32
abbrev wB : EReal := Ideal.ofBits .f32 0x46000000#32

/-- A rank-1 index set is its one coordinate range, so a sum over it is the sum over the coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

end PearsonLoss

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibSublaneSum.lean ====
/-
  The sum of an [a, b] array along its rows (axis 0), read at an index: on the extended reals the reduction
  to [b], at q, is the sum over k of the entries (k, q).  Stated for any extents a and b.
-/
import Idealize.ShloMosaic.Lib.Pipeline.Value
import Idealize.ShloMosaic.Lib.ValueIdx
import Idealize.ShloMosaic.PureOps.Ideal.Laws

namespace SublaneSum

open Idealize.ShloMosaic Idealize.ShloMosaic.ValueIdx

/-- The index of an [a, b] array that lies over q of the reduced [b] with row k put back is (k, q). -/
theorem lift_row {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- On the extended reals the sum of an [a, b] array along its rows is, at q, the sum over k of the entries
    (k, q): the reduction starts from the zero word, the neutral element of the sum. -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_row h q k)

end SublaneSum
-- ==== Proof.BlockLoss.lean ====
/-
  What the kernel's body adds to its running total at one grid point: the sum of the row terms of the 256 rows
  of the two input blocks.

  The body's arithmetic is read at an index.  For a block v of 256 rows and 4096 columns, the row sums kept as a
  column are Σ_k v(r,k); the centred block is v(r,k) minus that column divided by the row length; the column
  of row terms is 1 - (Σ xc·yc) / (√(Σ xc² + β) · √(Σ yc² + β)); and the body's contribution is the sum of that
  column over its 256 rows.
-/
import proofs.«125833_j15444702397065_1_alg».proof.Proof.Gen.KernelIdeal.Skeleton
import proofs.«125833_j15444702397065_1_alg».proof.Proof.PearsonSpec
import proofs.«125833_j15444702397065_1_alg».proof.Proof.LibKeepdims
import proofs.«125833_j15444702397065_1_alg».proof.Proof.LibSublaneSum

noncomputable section

namespace Cert.KernelIdeal.BlockLoss

open Idealize.ShloMosaic Idealize.ShloMosaic.ValueIdx Cert.KernelIdeal Cert.KernelIdeal.Gen PearsonLoss

/-- The row sums of a block, kept as a column. -/
def rowSums (v : FVec Ideal S256x4096 .f32) : FVec Ideal S256x1 .f32 :=
  shapeCast S256x1 (multiReduction .add [1] S256 v 0x00000000#32 reduces_S256x4096_S256 (.inl rfl) rfl) shapeCasts_S256_S256x1

/-- The block with each row's mean subtracted. -/
def centredBlock (v : FVec Ideal S256x4096 .f32) : FVec Ideal S256x4096 .f32 :=
  subf v (broadcastTo S256x4096 (divf (rowSums v) (broadcast S256x1 (Scalar.ofBits .f32 0x45800000#32))) broadcasts_S256x1_S256x4096)

/-- The column of the 256 row terms of two blocks. -/
def termColumn (v3 v4 : FVec Ideal S256x4096 .f32) : FVec Ideal S256x1 .f32 :=
  subf (broadcast S256x1 (Scalar.ofBits .f32 0x3F800000#32))
    (divf (rowSums (mulf (centredBlock v3) (centredBlock v4)))
      (mulf (sqrt (addf (rowSums (mulf (centredBlock v3) (centredBlock v3))) (broadcast S256x1 (Scalar.ofBits .f32 0x33D6BF95#32))))
        (sqrt (addf (rowSums (mulf (centredBlock v4) (centredBlock v4))) (broadcast S256x1 (Scalar.ofBits .f32 0x33D6BF95#32))))))

/-- The body's contribution is the term column summed over its rows. -/
theorem pay4_eq (v3 v4 : FVec Ideal S256x4096 .f32) :
    k0_pay4 (F := Ideal) v3 v4
      = shapeCast S1x1 (multiReduction .add [0] S1 (termColumn v3 v4) 0x00000000#32 reduces_S256x1_S1 (.inl rfl) rfl) shapeCasts_S1_S1x1 := rfl

/-- The row-sum column at row r is the sum of the row's entries. -/
theorem rowSums_apply (v : FVec Ideal S256x4096 .f32) (r : Fin 256) (z : Fin 1) :
    rowSums v (ix2 r z) = ∑ k : Fin 4096, v (ix2 r k) := by
  unfold rowSums
  rw [Keepdims.shapeCast_a_a1_apply, Keepdims.laneSum_apply]

/-- The centred block at (r, k). -/
theorem centredBlock_apply (v : FVec Ideal S256x4096 .f32) (r : Fin 256) (k : Fin 4096) :
    centredBlock v (ix2 r k) = centered wT (row v r) k := by
  unfold centredBlock
  rw [subf_apply, Keepdims.broadcastTo_a1_ab_apply, divf_apply, rowSums_apply, broadcast_apply]
  rfl

/-- The term column at row r is the row term of the two blocks' rows r. -/
theorem termColumn_apply (v3 v4 : FVec Ideal S256x4096 .f32) (r : Fin 256) (z : Fin 1) :
    termColumn v3 v4 (ix2 r z) = rowTerm wT wβ w1 (row v3 r) (row v4 r) := by
  unfold termColumn
  rw [subf_apply, divf_apply, mulf_apply, rowSums_apply, broadcast_apply]
  simp only [sqrt, addf_apply, rowSums_apply, mulf_apply, centredBlock_apply, broadcast_apply, Ideal.sqrt_def]
  rfl

/-- The body's contribution, at its one index: the sum of the 256 row terms. -/
theorem pay4_apply (v3 v4 : FVec Ideal S256x4096 .f32) (j : S1x1.Idx) :
    k0_pay4 (F := Ideal) v3 v4 j = ∑ r : Fin 256, rowTerm wT wβ w1 (row v3 r) (row v4 r) := by
  obtain ⟨p, z, rfl⟩ : ∃ (p : Fin 1) (z : Fin 1), j = ix2 p z := ⟨j 0, j 1, eq_ix2 j⟩
  rw [pay4_eq, Keepdims.shapeCast_a_a1_apply, SublaneSum.rowSum_apply]
  exact Finset.sum_congr rfl fun r _ => termColumn_apply v3 v4 r p

end Cert.KernelIdeal.BlockLoss

end
-- ==== Proof.RunningTotal.lean ====
/-
  The kernel's running total, point by point.

  Grid point t reads rows 256·t … 256·t + 255 of the two arguments and adds the sum of their 256 row terms to a
  running total that starts at zero.  So after point n the total is the sum of the contributions of points 0 … n,
  and at the last point, n = 31, the output's block receives that sum divided by the number of rows.  The 32
  contributions of 256 row terms each are the 8192 row terms of the whole arrays, taken block by block.
-/
import proofs.«125833_j15444702397065_1_alg».proof.Proof.BodyPieces
import proofs.«125833_j15444702397065_1_alg».proof.Proof.BlockLoss

noncomputable section

open Idealize.ShloMosaic Idealize.ShloMosaic.TcCoe Idealize.SL.Sem Idealize.ShloMosaic.ValueIdx

namespace Cert.KernelIdeal.RunningTotal

open Cert.KernelIdeal Cert.KernelIdeal.Gen Cert.KernelIdeal.BodyPieces Cert.KernelIdeal.BlockLoss PearsonLoss

variable (m : (ℓ : Loc nD τ sig) → Buf (Elt Ideal) ℓ)

/-! ## The payloads at an index -/

/-- The stored total is the total read plus the contribution. -/
theorem pay1_apply (v37 : FVec Ideal S1x1 .f32) (v38 : Vec Ideal S1x1 .f32) (j : S1x1.Idx) :
    k0_pay1 (F := Ideal) v37 v38 j = v38 j + v37 j := by
  unfold k0_pay1
  rw [shapeCast_self]
  rfl

/-- The first point's reset stores zero. -/
theorem pay3_apply (j : S1x1.Idx) : k0_pay3 (F := Ideal) j = 0 := by
  unfold k0_pay3
  rw [shapeCast_self]
  exact Ideal.ofBits_zero_f32

/-- The output's block receives the total divided by the number of rows. -/
theorem pay2_apply (v46 : Vec Ideal S1x1 .f32) (j : S1x1.Idx) : k0_pay2 (F := Ideal) v46 j = Ideal.div (v46 j) wB := rfl

/-! ## An input block is a band of 256 rows of its argument -/

/-- Where the two input windows' blocks sit: block t starts at row-block t, column-block 0. -/
theorem index_first : ∀ t : Fin cfg0.N, win0_0.index t 0 = t.val ∧ win0_0.index t 1 = 0 :=
  (by decide +kernel : ∀ t : Fin grid0.N, win0_0.index t 0 = t.val ∧ win0_0.index t 1 = 0)
theorem index_second : ∀ t : Fin cfg0.N, win0_1.index t 0 = t.val ∧ win0_1.index t 1 = 0 :=
  (by decide +kernel : ∀ t : Fin grid0.N, win0_1.index t 0 = t.val ∧ win0_1.index t 1 = 0)

/-- Row 256·t + r of the whole array, for a block t of the 32 and a row r of its 256. -/
def bandRow (t : Fin cfg0.N) (r : Fin 256) : Fin 8192 :=
  ⟨256 * t.val + r.val, by have := lt_of_lt_of_eq t.isLt (show cfg0.N = 32 from N_0); have := r.isLt; omega⟩

/-- Entry (r, k) of the first argument's block at point t is entry (256·t + r, k) of the argument. -/
theorem block_first (c : Dev nD) (t : Fin cfg0.N) (r : Fin 256) (k : Fin 4096) :
    (iblk m c 0 t : Vec Ideal S256x4096 .f32) (ix2 r k) = m ((c : Thread nD τ).loc main_arg0) (ix2 (bandRow t r) k) := by
  have hi := index_first t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = 256 * t.val + r.val; rw [hi.1]; omega
  | ⟨1, _⟩ => show win0_0.index t 1 * 4096 + 1 * k.val = k.val; rw [hi.2]; omega

/-- The same for the second argument. -/
theorem block_second (c : Dev nD) (t : Fin cfg0.N) (r : Fin 256) (k : Fin 4096) :
    (iblk m c 1 t : Vec Ideal S256x4096 .f32) (ix2 r k) = m ((c : Thread nD τ).loc main_arg1) (ix2 (bandRow t r) k) := by
  have hi := index_second t
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = 256 * t.val + r.val; rw [hi.1]; omega
  | ⟨1, _⟩ => show win0_1.index t 1 * 4096 + 1 * k.val = k.val; rw [hi.2]; omega

/-! ## The running total after each point -/

/-- The contribution of point n: the sum of the row terms of the 256 rows of its two blocks (zero past the grid). -/
def contribution (c : Dev nD) (n : ℕ) : EReal :=
  if h : n < cfg0.N then
    ∑ r : Fin 256, rowTerm wT wβ w1 (row (iblk m c 0 ⟨n, h⟩ : Vec Ideal S256x4096 .f32) r)
      (row (iblk m c 1 ⟨n, h⟩ : Vec Ideal S256x4096 .f32) r)
  else 0

theorem contribution_of_lt (c : Dev nD) (n : ℕ) (h : n < cfg0.N) :
    contribution m c n = ∑ r : Fin 256, rowTerm wT wβ w1 (row (iblk m c 0 ⟨n, h⟩ : Vec Ideal S256x4096 .f32) r)
      (row (iblk m c 1 ⟨n, h⟩ : Vec Ideal S256x4096 .f32) r) := dif_pos h

/-- After point n the running total is the sum of the contributions of points 0 … n: zero plus the first at the
    first point, the total before plus the point's own at every later one. -/
theorem total_after (c : Dev nD) : ∀ (n : ℕ) (h : n < cfg0.N),
    (outsAt0 m c n h).2 = fun _ => ∑ t ∈ Finset.range (n + 1), contribution m c t
  | 0, h => by
    rw [outsAt0_A m c ⟨0, h⟩ rfl (by show ¬0 % 32 = 31; decide)]
    dsimp only
    rw [total_first]
    funext j
    rw [pay1_apply, pay3_apply, zero_add, pay4_apply, Finset.sum_range_one, contribution_of_lt m c 0 h]
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      rw [total_last]
      funext j
      rw [pay1_apply, pay4_apply]
      show (outsAt0 m c n _).2 j + _ = _
      rw [total_after c n, Finset.sum_range_succ _ (n + 1), contribution_of_lt m c (n + 1) h]
    · rw [outsAt0_B m c ⟨n + 1, h⟩ h0 h1]
      dsimp only
      rw [total_later]
      funext j
      rw [pay1_apply, pay4_apply]
      show (outsAt0 m c n _).2 j + _ = _
      rw [total_after c n, Finset.sum_range_succ _ (n + 1), contribution_of_lt m c (n + 1) h]

/-- At the last point the output's block receives the sum of all 32 contributions divided by the number of rows. -/
theorem out_at_last (c : Dev nD) (t : Fin cfg0.N) (ht : t.val % 32 = 31) :
    (outsAt0 m c t.val t.isLt).1 = fun _ => Ideal.div (∑ s ∈ Finset.range 32, contribution m c s) wB := by
  have hN : cfg0.N = 32 := N_0
  obtain ⟨n, hn⟩ := t
  obtain rfl : n = 31 := by dsimp only at ht; omega
  rw [outsAt0_C m c ⟨31, hn⟩ (by show ¬31 % 32 = 0; decide) ht]
  dsimp only
  rw [out_last]
  funext j
  rw [pay2_apply, pay1_apply, pay4_apply]
  show Ideal.div ((outsAt0 m c 30 _).2 j + _) wB = _
  rw [total_after m c 30, Finset.sum_range_succ _ 31, contribution_of_lt m c 31 hn]

/-! ## The 32 contributions are the 8192 row terms -/

/-- The sum of the contributions of all points is the sum of the row terms of all rows of the two arguments. -/
theorem contributions_eq_rows (c : Dev nD) :
    ∑ s ∈ Finset.range 32, contribution m c s
      = ∑ e : Fin 8192, rowTerm wT wβ w1 (row (m ((c : Thread nD τ).loc main_arg0)) e) (row (m ((c : Thread nD τ).loc main_arg1)) e) := by
  have hN : cfg0.N = 32 := N_0
  rw [Finset.sum_range, BlockSum.sum_eq_sum_blocks 32 256 8192 (by norm_num)
    (fun e => rowTerm wT wβ w1 (row (m ((c : Thread nD τ).loc main_arg0)) e) (row (m ((c : Thread nD τ).loc main_arg1)) e))]
  refine Finset.sum_congr rfl fun s _ => ?_
  have hs : s.val < cfg0.N := lt_of_lt_of_eq s.isLt hN.symm
  rw [contribution_of_lt m c s.val hs]
  refine Finset.sum_congr rfl fun r _ => ?_
  have e0 : row (iblk m c 0 ⟨s.val, hs⟩ : Vec Ideal S256x4096 .f32) r
      = row (m ((c : Thread nD τ).loc main_arg0)) (bandRow ⟨s.val, hs⟩ r) := funext fun k => block_first m c ⟨s.val, hs⟩ r k
  have e1 : row (iblk m c 1 ⟨s.val, hs⟩ : Vec Ideal S256x4096 .f32) r
      = row (m ((c : Thread nD τ).loc main_arg1)) (bandRow ⟨s.val, hs⟩ r) := funext fun k => block_second m c ⟨s.val, hs⟩ r k
  rw [e0, e1]
  rfl

end Cert.KernelIdeal.RunningTotal

end
-- ==== Proof.KernelValue.lean ====
/-
  The kernel's result is the batch Pearson loss of its two arguments.

  The output array has one element and one block; only the last grid point writes it back, with the sum of all
  contributions divided by the number of rows, which is the loss.  The program's result is that array reshaped to
  a scalar.
-/
import proofs.«125833_j15444702397065_1_alg».proof.Proof.RunningTotal
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.RunningTotal PearsonLoss

variable (m : (ℓ : Loc nD τ sig) → Buf (Elt Ideal) ℓ) (ρ : Dev nD → PrngReg)

/-- The loss of the two arguments as the contents of the one-element output array. -/
def lossBlock (c : Dev nD) : Buf (Elt Ideal) ((c : Thread nD τ).loc main_v0) :=
  fun _ => loss wT wβ w1 wB (m ((c : Thread nD τ).loc main_arg0)) (m ((c : Thread nD τ).loc main_arg1))

/-- The last grid point. -/
def lastPoint : Fin cfg0.N := ⟨31, by rw [show cfg0.N = 32 from N_0]; decide⟩

/-- What a point that writes the output back writes is the loss, read through the point's block. -/
theorem flushed_eq (c : Dev nD) (t : Fin cfg0.N) (hf : (cfg0.win 2).flush t = true) :
    (dats m 0 c).flushed 2 t = ((cfg0.win 2).blk t).view.read (Elt Ideal) (lossBlock m c) := by
  have ht : t.val % 32 = 31 := (flush0_2 t).mp hf
  show (cfg0.win 2).cut (grid0.coords t) ((dats m 0 c).after 2 t) = _
  rw [after0_2, out_at_last m c t ht, contributions_eq_rows]
  funext y
  rw [View.read_apply]
  rfl

/-- The last point's block is the whole one-element array, so the array ends holding the loss. -/
theorem final_out (c : Dev nD) : (dats m 0 c).arrAt 2 cfg0.N = lossBlock m c :=
  (dats m 0 c).arrAt_eq_of_cover 2 (lossBlock m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [show win0_2.index lastPoint 0 * win0_2.size 0 = 0 from by decide +kernel,
          show win0_2.xsize (grid0.coords lastPoint) 0 = 1 from by decide +kernel]
        omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [show win0_2.index lastPoint 1 * win0_2.size 1 = 0 from by decide +kernel,
          show win0_2.xsize (grid0.coords lastPoint) 1 = 1 from by decide +kernel]
        omega⟩

/-- The program's result, the output array reshaped to a scalar, is the loss. -/
theorem result_value (c : Dev nD) :
    Pipeline.afterTail₀ cfgs (dats m) 0 (V0 m) [hostOps1] c main_v1
      = fun _ => loss wT wβ w1 wB (m ((c : Thread nD τ).loc main_arg0)) (m ((c : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = lossBlock m c := (Pipeline.withArrays_arr spec0 launch0.win.arr_inj c _ _ 2).trans (final_out m c)
  rw [e]
  rfl

/-- The result buffer is neither one of the kernel's own buffers nor an array of the call. -/
theorem result_bypasses : main_v1 ∈ Pipeline.restRefs sig (cfgs 0).spec := by decide

/-- Every execution of the program ends with the loss of its arguments in the result and the arguments unchanged. -/
theorem run : θ_run defs (onTc (τ := τ) (main (F := Ideal))) ⟨m, fun _ => 0, ρ⟩ fun r => ∀ c : Dev nD,
      r.2.mem ((c : Thread nD τ).loc main_v1)
          = (fun _ => loss wT wβ w1 wB (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 result_bypasses).trans (result_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelValue

end
-- ==== Proof.RefLoss.lean ====
/-
  The reference program computes the batch Pearson loss.

  Its result, a scalar, is read off its operations one at a time: the row means are the row sums divided by the
  row length, the centred entries are the entries minus their row's mean, each row's term is
  1 - (Σ xc·yc) / (√(Σ xc² + β) · √(Σ yc² + β)), and the result is the sum of the 8192 row terms divided by 8192.
  Every sum of the program starts from the zero word, which is the neutral element of the addition.
-/
import proofs.«125833_j15444702397065_1_alg».proof.Proof.Gen.ReferenceIdeal.Read
import proofs.«125833_j15444702397065_1_alg».proof.Proof.PearsonSpec

noncomputable section

namespace Cert.ReferenceIdeal.RefValue

open Idealize.ShloMosaic Idealize.ShloMosaic.ValueIdx Cert.ReferenceIdeal Cert.ReferenceIdeal.Read PearsonLoss

/-- The first argument's centred entry at (r, k): the entry minus the row's sum divided by the row length. -/
theorem centred_first (x0 : S8192x4096.Idx → EReal) (r : Fin 8192) (k : Fin 4096) :
    val_main_v5 (F := Ideal) x0 (ix2 r k) = centered wT (row x0 r) k := by
  have hi : ∀ l : Fin 4096, idx_main_v0 (idx_main_v1 (idx_main_v4 (ix2 r k))) l = ix2 r l := fun l =>
    funext fun a => Fin.ext (by match a with | ⟨0, _⟩ => rfl | ⟨1, _⟩ => rfl)
  rw [val_main_v5_apply, val_main_v4_apply, val_main_v3_apply, val_main_v1_apply, val_main_v0_apply, val_main_v2_apply,
    val_main_cst_0_apply, val_main_cst_apply]
  simp only [hi, Ideal.subf_def, Ideal.hostDivf_def, Ideal.ofBits_def, Ideal.ofBits_zero_f32, zero_add, centered, row]

/-- The second argument's centred entry at (r, k). -/
theorem centred_second (x1 : S8192x4096.Idx → EReal) (r : Fin 8192) (k : Fin 4096) :
    val_main_v11 (F := Ideal) x1 (ix2 r k) = centered wT (row x1 r) k := by
  have hi : ∀ l : Fin 4096, idx_main_v6 (idx_main_v7 (idx_main_v10 (ix2 r k))) l = ix2 r l := fun l =>
    funext fun a => Fin.ext (by match a with | ⟨0, _⟩ => rfl | ⟨1, _⟩ => rfl)
  rw [val_main_v11_apply, val_main_v10_apply, val_main_v9_apply, val_main_v7_apply, val_main_v6_apply, val_main_v8_apply,
    val_main_cst_2_apply, val_main_cst_1_apply]
  simp only [hi, Ideal.subf_def, Ideal.hostDivf_def, Ideal.ofBits_def, Ideal.ofBits_zero_f32, zero_add, centered, row]

/-- Row r's term, as the reference computes it. -/
theorem row_term (x0 x1 : S8192x4096.Idx → EReal) (r : Fin 8192) :
    val_main_v27 (F := Ideal) x0 x1 (ix1 r) = rowTerm wT wβ w1 (row x0 r) (row x1 r) := by
  have h13 : ∀ k : Fin 4096, idx_main_v13 (ix1 r) k = ix2 r k := fun k =>
    funext fun a => Fin.ext (by match a with | ⟨0, _⟩ => rfl | ⟨1, _⟩ => rfl)
  have h15 : ∀ k : Fin 4096, idx_main_v15 (ix1 r) k = ix2 r k := fun k =>
    funext fun a => Fin.ext (by match a with | ⟨0, _⟩ => rfl | ⟨1, _⟩ => rfl)
  have h20 : ∀ k : Fin 4096, idx_main_v20 (ix1 r) k = ix2 r k := fun k =>
    funext fun a => Fin.ext (by match a with | ⟨0, _⟩ => rfl | ⟨1, _⟩ => rfl)
  rw [val_main_v27_apply, val_main_v26_apply, val_main_cst_8_apply, val_main_v25_apply, val_main_v13_apply,
    val_main_v24_apply, val_main_v18_apply, val_main_v23_apply, val_main_v17_apply, val_main_v22_apply,
    val_main_v15_apply, val_main_v20_apply, val_main_v16_apply, val_main_v21_apply, val_main_cst_5_apply,
    val_main_cst_7_apply, val_main_cst_3_apply, val_main_cst_4_apply, val_main_cst_6_apply]
  simp only [h13, h15, h20, val_main_v12_apply, val_main_v14_apply, val_main_v19_apply, centred_first, centred_second,
    Ideal.subf_def, Ideal.mulf_def, Ideal.addf_def, Ideal.hostDivf_def, Ideal.hostUnary_sqrt_def, Ideal.ofBits_def,
    Ideal.ofBits_zero_f32, zero_add, rowTerm]

/-- The reference's result: the loss of its two arguments. -/
theorem result_eq (x0 x1 : S8192x4096.Idx → EReal) :
    val_main_v29 (F := Ideal) x0 x1 = fun _ => loss wT wβ w1 wB x0 x1 := by
  funext i
  rw [val_main_v29_apply, val_main_v28_apply, val_main_cst_10_apply, val_main_cst_9_apply, sum_idx1]
  simp only [row_term, Ideal.hostDivf_def, Ideal.ofBits_def, Ideal.ofBits_zero_f32, zero_add, loss]

end Cert.ReferenceIdeal.RefValue

end
-- ==== Proof.lean ====
/-
  The kernel and its reference compute the same batch Pearson loss.

  Both programs take two arrays of 8192 rows and 4096 columns and return one number: the sum over the rows of
      1 - (Σ xc·yc) / (√(Σ xc² + β) · √(Σ yc² + β)),
  xc and yc being the row's entries minus the row's mean, divided by the number of rows.  The reference computes
  the 8192 row terms at once and adds them up; the kernel walks over 32 bands of 256 rows, adds each band's 256
  row terms to a running total that starts at zero, and divides the total after the last band.  On the extended
  reals a sum may be taken in any grouping, so the two results are the same number whatever the entries are: the
  proof never needs the inputs to be finite.  Each row term is spelled with the same operations and the same
  constants in both programs.

  The three frame claims are the generated frame of the kernel at both instances and the reference's run with its
  result dropped; the idealization rewrote nothing.
-/
import proofs.«125833_j15444702397065_1_alg».proof.Defs
import proofs.«125833_j15444702397065_1_alg».proof.Proof.Gen.Kernel
import proofs.«125833_j15444702397065_1_alg».proof.Proof.Gen.Kernel.Frame
import proofs.«125833_j15444702397065_1_alg».proof.Proof.Gen.KernelIdeal
import proofs.«125833_j15444702397065_1_alg».proof.Proof.Gen.KernelIdeal.Frame
import proofs.«125833_j15444702397065_1_alg».proof.Proof.Gen.ReferenceIdeal
import proofs.«125833_j15444702397065_1_alg».proof.Proof.Gen.ReferenceIdeal.Run
import proofs.«125833_j15444702397065_1_alg».proof.Proof.Gen.ReferenceIdeal.Read
import proofs.«125833_j15444702397065_1_alg».proof.Proof.Gen.Pre_finite_inputs
import proofs.«125833_j15444702397065_1_alg».proof.Proof.KernelValue
import proofs.«125833_j15444702397065_1_alg».proof.Proof.RefLoss
import Idealize.ShloMosaic.Adequacy
import Idealize.ShloMosaic.Init

noncomputable section

namespace Cert.Proof

open Idealize.ShloMosaic Idealize.SL.Sem PearsonLoss

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the (agreeing) arguments in their result. -/
theorem algebraic : Cert.algebraic_KernelIdeal_ReferenceIdeal := by
  intro m ρ m' ρ' _ hagree
  refine ⟨fun c => fun _ => loss wT wβ w1 wB (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  show _ = fun _ => loss wT wβ w1 wB (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
  rw [Cert.ReferenceIdeal.Read.val_main_v29_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
